-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x96x128x128 : Shape := ⟨4, ![16, 96, 128, 128]⟩
abbrev S_ : Shape := ⟨0, ![]⟩

class Facts : Prop where
  bcast_S_S16x96x128x128 : S_.BroadcastsInDim S16x96x128x128 (![] : Fin 0 → Fin S16x96x128x128.rank)
  reducesTo_S16x96x128x128_S_d0_1_2_3 : S16x96x128x128.ReducesTo [0, 1, 2, 3] S_
  h_S_ : 0 < S_.numel

variable [Facts]

def fn {F : FTy → Type} [FloatOps F] (main_arg0 : FVec F S16x96x128x128 .f32) : IVec S_ 1 :=
  let main_v0 : FVec F S16x96x128x128 .f32 := Host.absf main_arg0
  let main_cst : FVec F S_ .f32 := constant S_ .f32 0x7F800000#32
  let main_v1 : FVec F S16x96x128x128 .f32 := broadcastInDim S16x96x128x128 ![] bcast_S_S16x96x128x128 main_cst
  let main_v2 : IVec S16x96x128x128 1 := cmpf .olt main_v0 main_v1
  let main_c : IVec S_ 1 := constantI S_ 1 1#1
  let main_v3 : IVec S_ 1 := (fun x v => Host.reduce IntOp.andi x v reducesTo_S16x96x128x128_S_d0_1_2_3 h_S_) main_v2 main_c
  main_v3
-- ==== Kernel.lean ====
abbrev S16x96x128x128 : Shape := ⟨4, ![16, 96, 128, 128]⟩
abbrev S16x4x96x16384 : Shape := ⟨4, ![16, 4, 96, 16384]⟩
abbrev S1x16x128x128 : Shape := ⟨4, ![1, 16, 128, 128]⟩
abbrev S1x4x16x16384 : Shape := ⟨4, ![1, 4, 16, 16384]⟩
abbrev S16x128x128 : Shape := ⟨3, ![16, 128, 128]⟩
abbrev S16x16384 : Shape := ⟨2, ![16, 16384]⟩
abbrev S1x16x16384 : Shape := ⟨3, ![1, 16, 16384]⟩
abbrev S4x16x16384 : Shape := ⟨3, ![4, 16, 16384]⟩

abbrev nBuf : Space → Nat
  | .hbm => 3
  | .vmem => 6
  | .smem => 0
  | _ => 0

abbrev bufTy : (tb : Table) → Fin (tcTables nBuf tb) → BufTy
  | .hbm, ⟨0, _⟩ => ⟨S16x96x128x128, .f32⟩
  | .hbm, ⟨1, _⟩ => ⟨S16x96x128x128, .f32⟩
  | .hbm, ⟨2, _⟩ => ⟨S16x4x96x16384, .f32⟩
  | .local _ .vmem, ⟨0, _⟩ => ⟨S1x16x128x128, .f32⟩
  | .local _ .vmem, ⟨1, _⟩ => ⟨S1x16x128x128, .f32⟩
  | .local _ .vmem, ⟨2, _⟩ => ⟨S1x16x128x128, .f32⟩
  | .local _ .vmem, ⟨3, _⟩ => ⟨S1x16x128x128, .f32⟩
  | .local _ .vmem, ⟨4, _⟩ => ⟨S1x4x16x16384, .f32⟩
  | .local _ .vmem, ⟨5, _⟩ => ⟨S1x4x16x16384, .f32⟩
  | _, _ => ⟨S16x96x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 6], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x16x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x16x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x16x128x128_S1x16x128x128_0_0_0_0 : ∀ a, (![0, 0, 0, 0] : Fin 4 → Nat) a + S1x16x128x128.size a ≤ S1x16x128x128.size a
  h_S1x16x128x128 : 0 < S1x16x128x128.numel
  shapeCasts_S1x16x128x128_S16x128x128 : S1x16x128x128.ShapeCasts S16x128x128
  shapeCasts_S16x128x128_S16x16384 : S16x128x128.ShapeCasts S16x16384
  transposes_S16x128x128_p0_2_1_S16x128x128 : S16x128x128.Transposes [0, 2, 1] S16x128x128
  shapeCasts_S16x16384_S1x16x16384 : S16x16384.ShapeCasts S1x16x16384
  concatenates_S1x16x16384_S1x16x16384_S1x16x16384_S1x16x16384_S4x16x16384_d0 : Shape.Concatenates [S1x16x16384, S1x16x16384, S1x16x16384, S1x16x16384] S4x16x16384 0
  inb_S1x4x16x16384_S1x4x16x16384_0_0_0_0 : ∀ a, (![0, 0, 0, 0] : Fin 4 → Nat) a + S1x4x16x16384.size a ≤ S1x4x16x16384.size a
  h_S1x4x16x16384 : 0 < S1x4x16x16384.numel
  shapeCasts_S1x4x16x16384_S4x16x16384 : S1x4x16x16384.ShapeCasts S4x16x16384
  shapeCasts_S4x16x16384_S1x4x16x16384 : S4x16x16384.ShapeCasts S1x4x16x16384
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x128x128.size a ≤ S16x96x128x128.size a
  hwx0_0 : ∀ i : grid0.Coords, EltTy.bits .f32 = 32 ∨ (Rect.block (s := S16x96x128x128) S1x16x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x128x128.size a ≤ S16x96x128x128.size a
  hwx0_1 : ∀ i : grid0.Coords, EltTy.bits .f32 = 32 ∨ (Rect.block (s := S16x96x128x128) S1x16x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x16x16384.size a ≤ S16x4x96x16384.size a
  hwx0_2 : ∀ i : grid0.Coords, EltTy.bits .f32 = 32 ∨ (Rect.block (s := S16x4x96x16384) S1x4x16x16384.size (cc0_transform_2 i) (hinb0_2 i)).WholeWords (EltTy.packing .f32)

variable [Facts₀]

abbrev win0_0 : Pipeline.Window sig grid0 :=
  Pipeline.Window.ofSpec (Memref.whole main_arg0) S1x16x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x16x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x4x16x16384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x96x128x128 : Shape := ⟨4, ![16, 96, 128, 128]⟩
abbrev S16x96x16384 : Shape := ⟨3, ![16, 96, 16384]⟩
abbrev S16x1x96x16384 : Shape := ⟨4, ![16, 1, 96, 16384]⟩
abbrev S16x4x96x16384 : Shape := ⟨4, ![16, 4, 96, 16384]⟩

abbrev nBuf : Space → Nat
  | .hbm => 11
  | .vmem => 0
  | .smem => 0
  | _ => 0

abbrev bufTy : (tb : Table) → Fin (tcTables nBuf tb) → BufTy
  | .hbm, ⟨0, _⟩ => ⟨S16x96x128x128, .f32⟩
  | .hbm, ⟨1, _⟩ => ⟨S16x96x16384, .f32⟩
  | .hbm, ⟨2, _⟩ => ⟨S16x96x128x128, .f32⟩
  | .hbm, ⟨3, _⟩ => ⟨S16x96x16384, .f32⟩
  | .hbm, ⟨4, _⟩ => ⟨S16x96x16384, .f32⟩
  | .hbm, ⟨5, _⟩ => ⟨S16x96x16384, .f32⟩
  | .hbm, ⟨6, _⟩ => ⟨S16x1x96x16384, .f32⟩
  | .hbm, ⟨7, _⟩ => ⟨S16x1x96x16384, .f32⟩
  | .hbm, ⟨8, _⟩ => ⟨S16x1x96x16384, .f32⟩
  | .hbm, ⟨9, _⟩ => ⟨S16x1x96x16384, .f32⟩
  | .hbm, ⟨10, _⟩ => ⟨S16x4x96x16384, .f32⟩
  | _, _ => ⟨S16x96x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩

abbrev nD : Nat := 1
abbrev τ : Topo := Topo.v7x

variable {F : FTy → Type} [FloatOps F]

class Facts₀ : Prop where
  shapeCasts_S16x96x128x128_S16x96x16384 : S16x96x128x128.ShapeCasts S16x96x16384
  transposes_S16x96x128x128_S16x96x128x128_0_1_3_2 : S16x96x128x128.Transposes [0, 1, 3, 2] S16x96x128x128
  bcast_S16x96x16384_S16x1x96x16384_0_2_3 : S16x96x16384.BroadcastsInDim S16x1x96x16384 (![0, 2, 3] : Fin 3 → Fin S16x1x96x16384.rank)
  concatenates_S16x1x96x16384_S16x1x96x16384_S16x1x96x16384_S16x1x96x16384_S16x4x96x16384_d1 : Shape.Concatenates [S16x1x96x16384, S16x1x96x16384, S16x1x96x16384, S16x1x96x16384] S16x4x96x16384 1

variable [Facts₀]

class Facts : Prop extends Facts₀ where

variable [Facts]
-- ==== Proof.Scan.lean ====
/-
  The four-direction scan of an image batch, as ONE function of the input array.

  The input is `x[b, c, h, w]` over `16 × 96 × 128 × 128`; the result is `y[b, d, c, k]` over `16 × 4 × 96 × 16384`, where
  `k` runs over the `128 · 128` pixels of one image and `d` names the order in which they are visited:
    d = 0  row by row:                       k = 128·h + w
    d = 1  column by column:                 k = 128·w + h
    d = 2  row by row, from the last pixel:  k = 16383 − (128·h + w)
    d = 3  column by column, from the last:  k = 16383 − (128·w + h)
  So `y[b, d, c, k] = x[b, c, row d k, col d k]` with `row`, `col` the quotient and remainder of `k` by 128, exchanged for
  the column orders and reflected (`127 − ·`) for the two backward orders: reflecting BOTH image axes is the same as
  reading the pixel sequence backwards, since `16383 − (128·h + w) = 128·(127 − h) + (127 − w)`.

  Also here, with no program in sight: the layout operations the two programs build that function from — a reshape of an
  image to its pixel sequence, a transpose of the two image axes, a reversal of axes — each read at an index.
-/
import Idealize.ShloMosaic.Lib.ValueIdx
import Idealize.ShloMosaic.Lib.Pipeline.Value

namespace Cert.CrossScan

open Idealize.ShloMosaic Idealize.ShloMosaic.ValueIdx

/-- The image row that position `k` of scan order `d` reads. -/
def row (d k : Nat) : Nat :=
  if d = 0 then k / 128 else if d = 1 then k % 128 else if d = 2 then 127 - k / 128 else 127 - k % 128

/-- The image column that position `k` of scan order `d` reads. -/
def col (d k : Nat) : Nat :=
  if d = 0 then k % 128 else if d = 1 then k / 128 else if d = 2 then 127 - k % 128 else 127 - k / 128

theorem row_lt (d k : Nat) (hk : k < 16384) : row d k < 128 := by
  unfold row; split_ifs <;> omega

theorem col_lt (d k : Nat) (hk : k < 16384) : col d k < 128 := by
  unfold col; split_ifs <;> omega

/-- The input array's shape and the result's. -/
abbrev In : Shape := ⟨4, ![16, 96, 128, 128]⟩
abbrev Out : Shape := ⟨4, ![16, 4, 96, 16384]⟩

/-- Where result element `j = (b, d, c, k)` comes from: `(b, c, row d k, col d k)`. -/
def src (j : Out.Idx) : In.Idx :=
  ix4 (⟨(j 0).val, (j 0).isLt⟩ : Fin 16) (⟨(j 2).val, (j 2).isLt⟩ : Fin 96)
    (⟨row (j 1).val (j 3).val, row_lt _ _ (j 3).isLt⟩ : Fin 128) (⟨col (j 1).val (j 3).val, col_lt _ _ (j 3).isLt⟩ : Fin 128)

/-- THE SCAN: the result array as one function of the input array. -/
def scan {α : Type} (x : In.Idx → α) : Out.Idx → α := fun j => x (src j)

theorem scan_apply {α : Type} (x : In.Idx → α) (b : Fin 16) (d : Fin 4) (c : Fin 96) (k : Fin 16384) :
    scan x (ix4 b d c k) = x (ix4 b c (⟨row d.val k.val, row_lt _ _ k.isLt⟩ : Fin 128) (⟨col d.val k.val, col_lt _ _ k.isLt⟩ : Fin 128)) := rfl

/-! ## Reversals read at an index -/

variable {α : Type}

/-- Reversing the last axis of a rank-3 array reads the reflected last coordinate. -/
theorem reverse_last3_apply {n0 n1 n2 : Nat} (x : (⟨3, ![n0, n1, n2]⟩ : Shape).Idx → α) (a : Fin n0) (b : Fin n1) (c : Fin n2) :
    Host.reverse (s := ⟨3, ![n0, n1, n2]⟩) [2] x (ix3 a b c) = x (ix3 a b c.rev) := by
  unfold Host.reverse
  refine congrArg x (funext fun e => ?_)
  match e with
  | ⟨0, _⟩ => rfl
  | ⟨1, _⟩ => rfl
  | ⟨2, _⟩ => rfl

/-- Reversing the last two axes of a rank-4 array reads both reflected. -/
theorem reverse_last4_apply {n0 n1 n2 n3 : Nat} (x : (⟨4, ![n0, n1, n2, n3]⟩ : Shape).Idx → α) (a : Fin n0) (b : Fin n1) (c : Fin n2) (d : Fin n3) :
    Host.reverse (s := ⟨4, ![n0, n1, n2, n3]⟩) [2, 3] x (ix4 a b c d) = x (ix4 a b c.rev d.rev) := by
  unfold Host.reverse
  refine congrArg x (funext fun e => ?_)
  match e with
  | ⟨0, _⟩ => rfl
  | ⟨1, _⟩ => rfl
  | ⟨2, _⟩ => rfl
  | ⟨3, _⟩ => rfl

end Cert.CrossScan
-- ==== Proof.RefScan.lean ====
/-
  The reference's result is the scan.

  The reference builds the four orders from the input `x`: the pixel sequence of each image (a reshape), the pixel sequence
  of each transposed image, and each of the two sequences reversed; it gives each a unit axis and joins the four along it.
  Read at `(b, d, c, k)`, the joined array is piece `d` at `(b, 0, c, k)`; a reshape reads the image at the quotient and
  remainder of `k` by 128, the transpose exchanges them, and a reversal of the sequence reads position `16383 − k`, whose
  quotient and remainder are `127 −` those of `k`.
-/
import proofs.«158171_j57251914055738_1_alg».proof.Proof.Gen.ReferenceIdeal.Read
import proofs.«158171_j57251914055738_1_alg».proof.Proof.Scan

noncomputable section

namespace Cert.ReferenceIdeal.RefValue

open Cert.ReferenceIdeal Cert.ReferenceIdeal.Gen Cert.ReferenceIdeal.Read Idealize.ShloMosaic Idealize.ShloMosaic.ValueIdx
open Cert.CrossScan

variable {F : FTy → Type} [FloatOps F]

/-- The four joined pieces, by number. -/
abbrev pieces (x : (⟨S16x96x128x128, .f32⟩ : BufTy).Contents (Elt F)) : Fin 4 → (S16x1x96x16384.Idx → Elt F .f32) := fun n =>
  match n with
  | ⟨0, _⟩ => val_main_v5 (F := F) x
  | ⟨1, _⟩ => val_main_v6 (F := F) x
  | ⟨2, _⟩ => val_main_v7 (F := F) x
  | ⟨3, _⟩ => val_main_v8 (F := F) x

/-- The pixel sequence of the images, at `(b, c, k)`: the image at `(k / 128, k % 128)`. -/
theorem seq_apply (x : (⟨S16x96x128x128, .f32⟩ : BufTy).Contents (Elt F)) (b : Fin 16) (c : Fin 96) (k : Fin 16384) :
    val_main_v0 (F := F) x (ix3 b c k)
      = x (ix4 b c (⟨k.val / 128, by have := k.isLt; omega⟩ : Fin 128) (⟨k.val % 128, by omega⟩ : Fin 128)) := by
  rw [val_main_v0_apply]
  refine congrArg x (funext fun a => Fin.ext ?_)
  have hb := b.isLt; have hc := c.isLt; have hk := k.isLt
  match a with
  | ⟨0, _⟩ => show ((b.val * 96 + c.val) * 16384 + k.val) / 1572864 = b.val; omega
  | ⟨1, _⟩ => show ((b.val * 96 + c.val) * 16384 + k.val) / 16384 % 96 = c.val; omega
  | ⟨2, _⟩ => show ((b.val * 96 + c.val) * 16384 + k.val) / 128 % 128 = k.val / 128; omega
  | ⟨3, _⟩ => show ((b.val * 96 + c.val) * 16384 + k.val) % 128 = k.val % 128; omega

/-- The pixel sequence of the transposed images, at `(b, c, k)`: the image at `(k % 128, k / 128)`. -/
theorem seqT_apply (x : (⟨S16x96x128x128, .f32⟩ : BufTy).Contents (Elt F)) (b : Fin 16) (c : Fin 96) (k : Fin 16384) :
    val_main_v2 (F := F) x (ix3 b c k)
      = x (ix4 b c (⟨k.val % 128, by omega⟩ : Fin 128) (⟨k.val / 128, by have := k.isLt; omega⟩ : Fin 128)) := by
  rw [val_main_v2_apply, val_main_v1_apply]
  refine congrArg x (funext fun a => Fin.ext ?_)
  have hb := b.isLt; have hc := c.isLt; have hk := k.isLt
  match a with
  | ⟨0, _⟩ => show ((b.val * 96 + c.val) * 16384 + k.val) / 1572864 = b.val; omega
  | ⟨1, _⟩ => show ((b.val * 96 + c.val) * 16384 + k.val) / 16384 % 96 = c.val; omega
  | ⟨2, _⟩ => show ((b.val * 96 + c.val) * 16384 + k.val) % 128 = k.val % 128; omega
  | ⟨3, _⟩ => show ((b.val * 96 + c.val) * 16384 + k.val) / 128 % 128 = k.val / 128; omega

/-- THE REFERENCE'S RESULT IS THE SCAN of its argument. -/
theorem result_eq_scan (x : (⟨S16x96x128x128, .f32⟩ : BufTy).Contents (Elt F)) :
    val_main_v9 (F := F) x = scan x := by
  funext j
  obtain ⟨b, d, c, k, rfl⟩ : ∃ (b : Fin 16) (d : Fin 4) (c : Fin 96) (k : Fin 16384), j = ix4 b d c k :=
    ⟨j 0, j 1, j 2, j 3, eq_ix4 j⟩
  rw [scan_apply]
  unfold val_main_v9
  show concatenate S16x4x96x16384 1 (List.ofFn fun n : Fin 4 => (⟨S16x1x96x16384, pieces x n⟩ : (s : Shape) × (s.Idx → _))) _ (ix4 b d c k) = _
  -- piece `d`, at `(b, 0, c, k)`
  refine (concatenate_ofFn_apply (t := S16x4x96x16384) (s₁ := S16x1x96x16384) (1 : Fin 4) (pieces x) _ rfl 1 rfl (ix4 b d c k) d
    (by show d.val / 1 = d.val; omega) (ix4 b (0 : Fin 1) c k) (by show 0 = d.val % 1; omega)
    (fun e he => by
      match e with
      | ⟨0, _⟩ => rfl
      | ⟨1, _⟩ => exact absurd rfl he
      | ⟨2, _⟩ => rfl
      | ⟨3, _⟩ => rfl)).trans ?_
  have hk := k.isLt
  match d with
  | ⟨0, _⟩ =>
    show val_main_v5 (F := F) x (ix4 b (0 : Fin 1) c k) = _
    rw [val_main_v5_apply]
    exact seq_apply x b c k
  | ⟨1, _⟩ =>
    show val_main_v6 (F := F) x (ix4 b (0 : Fin 1) c k) = _
    rw [val_main_v6_apply]
    exact seqT_apply x b c k
  | ⟨2, _⟩ =>
    show val_main_v7 (F := F) x (ix4 b (0 : Fin 1) c k) = _
    rw [val_main_v7_apply]
    unfold val_main_v3
    refine (reverse_last3_apply (val_main_v0 (F := F) x) b c k).trans ?_
    refine (seq_apply x b c k.rev).trans ?_
    refine congrArg x (funext fun a => Fin.ext ?_)
    match a with
    | ⟨0, _⟩ => rfl
    | ⟨1, _⟩ => rfl
    | ⟨2, _⟩ => show (16384 - (k.val + 1)) / 128 = 127 - k.val / 128; omega
    | ⟨3, _⟩ => show (16384 - (k.val + 1)) % 128 = 127 - k.val % 128; omega
  | ⟨3, _⟩ =>
    show val_main_v8 (F := F) x (ix4 b (0 : Fin 1) c k) = _
    rw [val_main_v8_apply]
    unfold val_main_v4
    refine (reverse_last3_apply (val_main_v2 (F := F) x) b c k).trans ?_
    refine (seqT_apply x b c k.rev).trans ?_
    refine congrArg x (funext fun a => Fin.ext ?_)
    match a with
    | ⟨0, _⟩ => rfl
    | ⟨1, _⟩ => rfl
    | ⟨2, _⟩ => show (16384 - (k.val + 1)) % 128 = 127 - k.val % 128; omega
    | ⟨3, _⟩ => show (16384 - (k.val + 1)) / 128 = 127 - k.val / 128; omega

end Cert.ReferenceIdeal.RefValue

end
-- ==== Proof.BlockScan.lean ====
/-
  One block of the kernel's result, as a block of the scan.

  At a grid point the kernel holds sixteen images `x0[0, r, h, w]` of the input and the same sixteen images of the input
  with both image axes reversed, `x1[0, r, h, w]`; it writes the block `y[0, d, r, k]`: for `d = 0, 1` the pixel sequence
  of image `r` of `x0`, respectively of its transpose, and for `d = 2, 3` the same of `x1`. A pixel sequence at `k` is the
  image at `(k / 128, k % 128)`; of the transpose, at `(k % 128, k / 128)`. When `x0` is images `16·q … 16·q + 15` of batch
  element `b` of an array `X` and `x1` the same images reflected in both axes, the block is the scan of `X` at
  `(b, d, 16·q + r, k)`.
-/
import proofs.«158171_j57251914055738_1_alg».proof.Proof.Gen.KernelIdeal.Value
import proofs.«158171_j57251914055738_1_alg».proof.Proof.Scan

noncomputable section

namespace Cert.KernelIdeal.ScanValue

open Cert.KernelIdeal Cert.KernelIdeal.Gen Cert.KernelIdeal.Value Idealize.ShloMosaic Idealize.ShloMosaic.ValueIdx
open Cert.CrossScan

variable {F : FTy → Type} [FloatOps F]

/-- The pixel sequence of image `r` of a block, at `k`: the image at `(k / 128, k % 128)`. -/
theorem seq_apply (P : Vec F S1x16x128x128 .f32) (h1 : S1x16x128x128.ShapeCasts S16x128x128) (h2 : S16x128x128.ShapeCasts S16x16384)
    (h3 : S16x16384.ShapeCasts S1x16x16384) (r : Fin 16) (k : Fin 16384) :
    shapeCast S1x16x16384 (shapeCast S16x16384 (shapeCast S16x128x128 P h1) h2) h3 (ix3 (0 : Fin 1) r k)
      = P (ix4 (0 : Fin 1) r (⟨k.val / 128, by have := k.isLt; omega⟩ : Fin 128) (⟨k.val % 128, by omega⟩ : Fin 128)) := by
  have hr := r.isLt; have hk := k.isLt
  refine (shapeCast_apply _ h3 _ (ix2 r k) (by
    rw [Shape.rowMajor_val_two, Shape.rowMajor_val_three]
    show r.val * 16384 + k.val = (0 * 16 + r.val) * 16384 + k.val; omega)).trans ?_
  refine (shapeCast_apply _ h2 _ (ix3 r (⟨k.val / 128, by omega⟩ : Fin 128) (⟨k.val % 128, by omega⟩ : Fin 128)) (by
    rw [Shape.rowMajor_val_two, Shape.rowMajor_val_three]
    show (r.val * 128 + k.val / 128) * 128 + k.val % 128 = r.val * 16384 + k.val; omega)).trans ?_
  exact shapeCast_apply _ h1 _ _ (by
    rw [Shape.rowMajor_val_three, Shape.rowMajor_val_four]
    show ((0 * 16 + r.val) * 128 + k.val / 128) * 128 + k.val % 128 = (r.val * 128 + k.val / 128) * 128 + k.val % 128; omega)

/-- The pixel sequence of the TRANSPOSE of image `r` of a block, at `k`: the image at `(k % 128, k / 128)`. -/
theorem seqT_apply (P : Vec F S1x16x128x128 .f32) (h1 : S1x16x128x128.ShapeCasts S16x128x128) (ht : S16x128x128.Transposes [0, 2, 1] S16x128x128)
    (h2 : S16x128x128.ShapeCasts S16x16384) (h3 : S16x16384.ShapeCasts S1x16x16384) (r : Fin 16) (k : Fin 16384) :
    shapeCast S1x16x16384 (shapeCast S16x16384 (transpose S16x128x128 [0, 2, 1] (shapeCast S16x128x128 P h1) ht) h2) h3 (ix3 (0 : Fin 1) r k)
      = P (ix4 (0 : Fin 1) r (⟨k.val % 128, by omega⟩ : Fin 128) (⟨k.val / 128, by have := k.isLt; omega⟩ : Fin 128)) := by
  have hr := r.isLt; have hk := k.isLt
  refine (shapeCast_apply _ h3 _ (ix2 r k) (by
    rw [Shape.rowMajor_val_two, Shape.rowMajor_val_three]
    show r.val * 16384 + k.val = (0 * 16 + r.val) * 16384 + k.val; omega)).trans ?_
  refine (shapeCast_apply _ h2 _ (ix3 r (⟨k.val / 128, by omega⟩ : Fin 128) (⟨k.val % 128, by omega⟩ : Fin 128)) (by
    rw [Shape.rowMajor_val_two, Shape.rowMajor_val_three]
    show (r.val * 128 + k.val / 128) * 128 + k.val % 128 = r.val * 16384 + k.val; omega)).trans ?_
  refine (transpose_apply [0, 2, 1] _ ht (ix3 r (⟨k.val / 128, by omega⟩ : Fin 128) (⟨k.val % 128, by omega⟩ : Fin 128))
    (ix3 r (⟨k.val % 128, by omega⟩ : Fin 128) (⟨k.val / 128, by omega⟩ : Fin 128)) (fun e => match e with
    | ⟨0, _⟩ => rfl
    | ⟨1, _⟩ => rfl
    | ⟨2, _⟩ => rfl)).trans ?_
  exact shapeCast_apply _ h1 _ _ (by
    rw [Shape.rowMajor_val_three, Shape.rowMajor_val_four]
    show ((0 * 16 + r.val) * 128 + k.val % 128) * 128 + k.val / 128 = (r.val * 128 + k.val % 128) * 128 + k.val / 128; omega)

/-- Where block element `(0, d, r, k)` reads its piece: at `(0, r, k)`. -/
theorem ix2_0_ix4 (d : Fin 4) (r : Fin 16) (k : Fin 16384) : ix2_0 (ix4 (0 : Fin 1) d r k) = ix3 (0 : Fin 1) r k :=
  funext fun a => match a with
    | ⟨0, _⟩ => rfl
    | ⟨1, _⟩ => rfl
    | ⟨2, _⟩ => rfl

/-- THE BLOCK IS A BLOCK OF THE SCAN: for `x0` images `16·q + r` of batch element `b` of `X` and `x1` the same images
    reflected in both axes. -/
theorem block_scan (X : In.Idx → Elt F .f32) (x0 x1 : Vec F S1x16x128x128 .f32) (b : Fin 16) (q : Fin 6)
    (h0 : ∀ (r : Fin 16) (h w : Fin 128),
      x0 (ix4 (0 : Fin 1) r h w) = X (ix4 b (⟨q.val * 16 + r.val, by have := q.isLt; have := r.isLt; omega⟩ : Fin 96) h w))
    (h1 : ∀ (r : Fin 16) (h w : Fin 128),
      x1 (ix4 (0 : Fin 1) r h w) = X (ix4 b (⟨q.val * 16 + r.val, by have := q.isLt; have := r.isLt; omega⟩ : Fin 96) h.rev w.rev))
    (d : Fin 4) (r : Fin 16) (k : Fin 16384) :
    E2 x0 x1 (ix4 (0 : Fin 1) d r k)
      = scan X (ix4 b d (⟨q.val * 16 + r.val, by have := q.isLt; have := r.isLt; omega⟩ : Fin 96) k) := by
  have hk := k.isLt
  rw [scan_apply]
  show Cat2_0 x0 x1 (csel2_0 (ix4 (0 : Fin 1) d r k)) (ix2_0 (ix4 (0 : Fin 1) d r k)) = _
  rw [ix2_0_ix4]
  match d with
  | ⟨0, _⟩ =>
    refine (seq_apply x0 _ _ _ r k).trans ((h0 r _ _).trans ?_)
    rfl
  | ⟨1, _⟩ =>
    refine (seqT_apply x0 _ _ _ _ r k).trans ((h0 r _ _).trans ?_)
    rfl
  | ⟨2, _⟩ =>
    refine (seq_apply x1 _ _ _ r k).trans ((h1 r _ _).trans ?_)
    refine congrArg X (funext fun a => Fin.ext ?_)
    match a with
    | ⟨0, _⟩ => rfl
    | ⟨1, _⟩ => rfl
    | ⟨2, _⟩ => show 128 - (k.val / 128 + 1) = 127 - k.val / 128; omega
    | ⟨3, _⟩ => show 128 - (k.val % 128 + 1) = 127 - k.val % 128; omega
  | ⟨3, _⟩ =>
    refine (seqT_apply x1 _ _ _ _ r k).trans ((h1 r _ _).trans ?_)
    refine congrArg X (funext fun a => Fin.ext ?_)
    match a with
    | ⟨0, _⟩ => rfl
    | ⟨1, _⟩ => rfl
    | ⟨2, _⟩ => show 128 - (k.val % 128 + 1) = 127 - k.val % 128; omega
    | ⟨3, _⟩ => show 128 - (k.val / 128 + 1) = 127 - k.val / 128; omega

end Cert.KernelIdeal.ScanValue

end
-- ==== Proof.KernelScan.lean ====
/-
  The kernel's result array is the scan of its argument.

  The grid has one point per batch element `b` and per group `q` of sixteen images. At that point the two input windows
  hold images `16·q … 16·q + 15` of batch element `b` of the argument, and of the argument with both image axes reversed
  (the one host operation before the call); the output window's block is `(b, all four orders, images 16·q … 16·q + 15, all
  pixels)` of the result. So what a point writes back is a block of the scan (the block lemma), the points' blocks cover
  the result array, and the array after the run is the scan.
-/
import proofs.«158171_j57251914055738_1_alg».proof.Proof.BlockScan
import Idealize.ShloMosaic.Lib.StableHlo.Run

noncomputable section

namespace Cert.KernelIdeal.ScanValue

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)
open Cert.CrossScan

variable {F : FTy → Type} [FloatOps F]
variable (m : (ℓ : Loc nD τ sig) → Buf (Elt F) ℓ) (ρ : Dev nD → PrngReg)

theorem hz : (![0, 0, 0, 0] : Fin 4 → Nat) = fun _ => 0 := funext fun a => by fin_cases a <;> rfl

/-- The windows' block indices, decided over the 96 grid points: both input windows sit at `(b, q, 0, 0)` where the
    output window sits at `(b, 0, q, 0)`, with `b < 16` and `q < 6`. -/
theorem idx_facts : ∀ t : Fin cfg0.N,
    win0_0.index t (0 : Fin 4) = win0_2.index t (0 : Fin 4) ∧ win0_0.index t (1 : Fin 4) = win0_2.index t (2 : Fin 4)
    ∧ win0_0.index t (2 : Fin 4) = 0 ∧ win0_0.index t (3 : Fin 4) = 0
    ∧ win0_1.index t (0 : Fin 4) = win0_2.index t (0 : Fin 4) ∧ win0_1.index t (1 : Fin 4) = win0_2.index t (2 : Fin 4)
    ∧ win0_1.index t (2 : Fin 4) = 0 ∧ win0_1.index t (3 : Fin 4) = 0
    ∧ win0_2.index t (1 : Fin 4) = 0 ∧ win0_2.index t (3 : Fin 4) = 0
    ∧ win0_2.index t (0 : Fin 4) < 16 ∧ win0_2.index t (2 : Fin 4) < 6 :=
  (by decide +kernel : ∀ t : Fin grid0.N, _)

/-- Every `(b, q)` is some point's. -/
theorem idx_onto : ∀ (b : Fin 16) (q : Fin 6), ∃ t : Fin cfg0.N, win0_2.index t = ![b.val, 0, q.val, 0] :=
  (by decide +kernel : ∀ (b : Fin 16) (q : Fin 6), ∃ t : Fin grid0.N, win0_2.index t = ![b.val, 0, q.val, 0])

/-- The second input window's array, as the call finds it: the argument with both image axes reversed. -/
theorem V_reversed (c : Dev nD) :
    (V m c main_v0 : S16x96x128x128.Idx → Elt F .f32) = Host.reverse [2, 3] (V m c main_arg0 : S16x96x128x128.Idx → Elt F .f32) := by
  rw [V_main_arg0]
  dsimp only [Gen.V, Gen.hostOps0]
  after_results

/-- The first input window's block at a point: images `16·q + r` of batch element `b` of the argument. -/
theorem iblk0_apply (c : Dev nD) (t : Fin cfg0.N) (b : Fin 16) (q : Fin 6)
    (hb : win0_2.index t (0 : Fin 4) = b.val) (hq : win0_2.index t (2 : Fin 4) = q.val) (r : Fin 16) (h w : Fin 128) :
    (iblk m c 0 t : Vec F S1x16x128x128 .f32) (ix4 (0 : Fin 1) r h w)
      = (V m c main_arg0 : S16x96x128x128.Idx → Elt F .f32) (ix4 b (⟨q.val * 16 + r.val, by have := q.isLt; have := r.isLt; omega⟩ : Fin 96) h w) := by
  obtain ⟨e00, e01, e02, e03, -⟩ := idx_facts t
  show V m c main_arg0 (((cfg0.win 0).blk t).view.emb (ix4 (0 : Fin 1) r h w)) = _
  refine congrArg (V m c main_arg0) (funext fun a => Fin.ext ?_)
  match a with
  | ⟨0, _⟩ => show win0_0.index t (0 : Fin 4) * 1 + 1 * 0 = b.val; omega
  | ⟨1, _⟩ => show win0_0.index t (1 : Fin 4) * 16 + 1 * r.val = q.val * 16 + r.val; omega
  | ⟨2, _⟩ => show win0_0.index t (2 : Fin 4) * 128 + 1 * h.val = h.val; omega
  | ⟨3, _⟩ => show win0_0.index t (3 : Fin 4) * 128 + 1 * w.val = w.val; omega

/-- The second input window's block at a point: the same images, reflected in both axes. -/
theorem iblk1_apply (c : Dev nD) (t : Fin cfg0.N) (b : Fin 16) (q : Fin 6)
    (hb : win0_2.index t (0 : Fin 4) = b.val) (hq : win0_2.index t (2 : Fin 4) = q.val) (r : Fin 16) (h w : Fin 128) :
    (iblk m c 1 t : Vec F S1x16x128x128 .f32) (ix4 (0 : Fin 1) r h w)
      = (V m c main_arg0 : S16x96x128x128.Idx → Elt F .f32) (ix4 b (⟨q.val * 16 + r.val, by have := q.isLt; have := r.isLt; omega⟩ : Fin 96) h.rev w.rev) := by
  obtain ⟨-, -, -, -, e10, e11, e12, e13, -⟩ := idx_facts t
  have e : ((cfg0.win 1).blk t).view.emb (ix4 (0 : Fin 1) r h w)
      = ix4 b (⟨q.val * 16 + r.val, by have := q.isLt; have := r.isLt; omega⟩ : Fin 96) h w := by
    refine funext fun a => Fin.ext ?_
    match a with
    | ⟨0, _⟩ => show win0_1.index t (0 : Fin 4) * 1 + 1 * 0 = b.val; omega
    | ⟨1, _⟩ => show win0_1.index t (1 : Fin 4) * 16 + 1 * r.val = q.val * 16 + r.val; omega
    | ⟨2, _⟩ => show win0_1.index t (2 : Fin 4) * 128 + 1 * h.val = h.val; omega
    | ⟨3, _⟩ => show win0_1.index t (3 : Fin 4) * 128 + 1 * w.val = w.val; omega
  show V m c main_v0 (((cfg0.win 1).blk t).view.emb (ix4 (0 : Fin 1) r h w)) = _
  rw [e, V_reversed]
  exact reverse_last4_apply _ b _ h w

/-- WHAT POINT `t` WRITES BACK is block `t` of the scan of the argument as the call finds it. -/
theorem flushed_eq (c : Dev nD) (t : Fin cfg0.N) :
    (dats m 0 c).flushed 2 t = ((cfg0.win 2).blk t).view.read (Elt F) (scan (V m c main_arg0 : S16x96x128x128.Idx → Elt F .f32)) := by
  rw [flushed2]
  obtain ⟨-, -, -, -, -, -, -, -, z1, z3, hb, hq⟩ := idx_facts t
  funext y
  show out0_2 (iblk m c 0 t) (iblk m c 1 t) y = scan (V m c main_arg0 : S16x96x128x128.Idx → Elt F .f32) (((cfg0.win 2).blk t).view.emb y)
  unfold out0_2
  rw [canon2_eq]
  simp only [View.ld_unit_zero (S := S1x16x128x128) hz]
  obtain ⟨y0, d, r, k, rfl⟩ : ∃ (y0 : Fin 1) (d : Fin 4) (r : Fin 16) (k : Fin 16384), y = ix4 y0 d r k :=
    ⟨y 0, y 1, y 2, y 3, eq_ix4 y⟩
  obtain rfl : y0 = 0 := Subsingleton.elim _ _
  refine (block_scan (V m c main_arg0 : S16x96x128x128.Idx → Elt F .f32) (iblk m c 0 t) (iblk m c 1 t)
    ⟨win0_2.index t (0 : Fin 4), hb⟩ ⟨win0_2.index t (2 : Fin 4), hq⟩
    (iblk0_apply m c t _ _ rfl rfl) (iblk1_apply m c t _ _ rfl rfl) d r k).trans ?_
  refine congrArg (scan (V m c main_arg0 : S16x96x128x128.Idx → Elt F .f32)) (funext fun a => Fin.ext ?_)
  match a with
  | ⟨0, _⟩ => show win0_2.index t (0 : Fin 4) = win0_2.index t (0 : Fin 4) * 1 + 1 * 0; omega
  | ⟨1, _⟩ => show d.val = win0_2.index t (1 : Fin 4) * 4 + 1 * d.val; omega
  | ⟨2, _⟩ => show win0_2.index t (2 : Fin 4) * 16 + r.val = win0_2.index t (2 : Fin 4) * 16 + 1 * r.val; omega
  | ⟨3, _⟩ => show k.val = win0_2.index t (3 : Fin 4) * 16384 + 1 * k.val; omega

/-- An index of the result array is in point `t`'s block iff each coordinate is in the block's range on its axis. -/
theorem mem_blk (t : Fin cfg0.N) (i : S16x4x96x16384.Idx) :
    i ∈ ((cfg0.win 2).blk t).view.set ↔ ∀ a : Fin 4, win0_2.index t a * S1x4x16x16384.size a ≤ (i a).val
      ∧ (i a).val < win0_2.index t a * S1x4x16x16384.size a + S1x4x16x16384.size a := by
  show i ∈ ((View.whole main_v1).slice (win0_2.rect t)).set ↔ _
  rw [View.set_slice_whole, Rect.mem_set_unit]
  exact Iff.rfl

/-- THE BLOCKS COVER THE RESULT: `(b, d, c, k)` is in the block of the point of `(b, c / 16)`. -/
theorem cover (i : S16x4x96x16384.Idx) :
    ∃ t : Fin cfg0.N, (cfg0.win 2).flush t = true ∧ i ∈ ((cfg0.win 2).blk t).view.set := by
  have hi0 : (i 0).val < 16 := (i 0).isLt
  have hi1 : (i 1).val < 4 := (i 1).isLt
  have hi2 : (i 2).val < 96 := (i 2).isLt
  have hi3 : (i 3).val < 16384 := (i 3).isLt
  obtain ⟨t, ht⟩ := idx_onto ⟨(i 0).val, hi0⟩ ⟨(i 2).val / 16, by omega⟩
  have q0 : win0_2.index t (0 : Fin 4) = (i 0).val := congrFun ht 0
  have q1 : win0_2.index t (1 : Fin 4) = 0 := congrFun ht 1
  have q2 : win0_2.index t (2 : Fin 4) = (i 2).val / 16 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 4 ≤ (i 1).val ∧ (i 1).val < win0_2.index t (1 : Fin 4) * 4 + 4; omega
  | ⟨2, _⟩ => show win0_2.index t (2 : Fin 4) * 16 ≤ (i 2).val ∧ (i 2).val < win0_2.index t (2 : Fin 4) * 16 + 16; omega
  | ⟨3, _⟩ => show win0_2.index t (3 : Fin 4) * 16384 ≤ (i 3).val ∧ (i 3).val < win0_2.index t (3 : Fin 4) * 16384 + 16384; omega

/-- THE RESULT ARRAY after the run is the scan of the argument. -/
theorem final (c : Dev nD) :
    (dats m 0 c).arrAt 2 cfg0.N = scan (m ((c : Thread nD τ).loc main_arg0) : S16x96x128x128.Idx → Elt F .f32) :=
  ((dats m 0 c).arrAt_eq_of_cover 2 (scan (V m c main_arg0 : S16x96x128x128.Idx → Elt F .f32)) (fun t _ => flushed_eq m c t) cover).trans
    (congrArg (fun X : S16x96x128x128.Idx → Elt F .f32 => scan X) (V_main_arg0 m c))

/-- THE RUN, read: the result array at the scan of the argument, the argument unchanged. -/
theorem run : θ_run defs (onTc (τ := τ) (main (F := F))) ⟨m, fun _ => 0, ρ⟩ fun r => ∀ c : Dev nD,
      r.2.mem ((c : Thread nD τ).loc main_v1) = scan (m ((c : Thread nD τ).loc main_arg0) : S16x96x128x128.Idx → Elt F .f32)
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.ScanValue

end
-- ==== Proof.lean ====
/-
  The kernel computes the four-direction scan of an image batch, and so does the reference.

  For `x[b, c, h, w]` over `16 × 96 × 128 × 128` both programs return `y[b, d, c, k]` over `16 × 4 × 96 × 16384`: for each image
  its pixels in four orders — row by row, column by column, and each of the two backwards (Proof/Scan.lean states it as one
  function, `scan`). The reference reshapes, transposes and reverses the whole array on the host (Proof/RefScan.lean). The
  kernel first reverses both image axes of the whole array on the host, and then, per batch element and per group of
  sixteen images, re-lays a block of the argument and the same block of the reversed array into the four orders
  (Proof/BlockScan.lean); its blocks tile the result (Proof/KernelScan.lean). The two agree because reading a pixel
  sequence backwards is reading the image with both axes reflected: `16383 − (128·h + w) = 128·(127 − h) + (127 − w)`.

  No arithmetic is done on the values: every result element is one input element, so the two results are equal element by
  element whatever the values are, and the finiteness of the input is not used. The idealization rewrote nothing, so
  `preserves` is trivial; the frames are the generated ones, the reference's its generated run with the result dropped.
-/
import proofs.«158171_j57251914055738_1_alg».proof.Defs
import proofs.«158171_j57251914055738_1_alg».proof.Proof.Gen.Kernel
import proofs.«158171_j57251914055738_1_alg».proof.Proof.Gen.Kernel.Skeleton
import proofs.«158171_j57251914055738_1_alg».proof.Proof.Gen.Kernel.Launch
import proofs.«158171_j57251914055738_1_alg».proof.Proof.Gen.Kernel.Points
import proofs.«158171_j57251914055738_1_alg».proof.Proof.Gen.Kernel.Frame
import proofs.«158171_j57251914055738_1_alg».proof.Proof.Gen.KernelIdeal
import proofs.«158171_j57251914055738_1_alg».proof.Proof.Gen.KernelIdeal.Skeleton
import proofs.«158171_j57251914055738_1_alg».proof.Proof.Gen.KernelIdeal.Launch
import proofs.«158171_j57251914055738_1_alg».proof.Proof.Gen.KernelIdeal.Points
import proofs.«158171_j57251914055738_1_alg».proof.Proof.Gen.KernelIdeal.Frame
import proofs.«158171_j57251914055738_1_alg».proof.Proof.Gen.ReferenceIdeal
import proofs.«158171_j57251914055738_1_alg».proof.Proof.Gen.Pre_finite_inputs
import proofs.«158171_j57251914055738_1_alg».proof.Proof.Gen.KernelIdeal.Value
import proofs.«158171_j57251914055738_1_alg».proof.Proof.Gen.ReferenceIdeal.Run
import proofs.«158171_j57251914055738_1_alg».proof.Proof.Gen.ReferenceIdeal.Read
import proofs.«158171_j57251914055738_1_alg».proof.Proof.RefScan
import proofs.«158171_j57251914055738_1_alg».proof.Proof.KernelScan
import Idealize.ShloMosaic.Adequacy
import Idealize.ShloMosaic.Init

noncomputable section

namespace Cert.Proof

open Idealize.ShloMosaic Idealize.SL.Sem Cert.CrossScan

/-- The word-level kernel runs and leaves its argument unchanged: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its argument unchanged: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the argument both programs end with the scan of that argument in their result arrays. -/
theorem algebraic : Cert.algebraic_KernelIdeal_ReferenceIdeal := by
  intro m ρ m' ρ' _ hagree
  refine ⟨fun c => scan (m ((c.tc : Thread Cert.KernelIdeal.nD Cert.KernelIdeal.τ).loc Cert.KernelIdeal.main_arg0)
      : Cert.KernelIdeal.S16x96x128x128.Idx → Elt Ideal .f32),
    Cert.KernelIdeal.ScanValue.run (F := Ideal) m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v9_eq, Cert.ReferenceIdeal.RefValue.result_eq_scan, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
